-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2097152x11 : Shape := ⟨2, ![2097152, 11]⟩
abbrev S11x128 : Shape := ⟨2, ![11, 128]⟩
abbrev S1x128 : Shape := ⟨2, ![1, 128]⟩
abbrev S128x3 : Shape := ⟨2, ![128, 3]⟩
abbrev S1x3 : Shape := ⟨2, ![1, 3]⟩
abbrev S_ : Shape := ⟨0, ![]⟩
abbrev S96x3 : Shape := ⟨2, ![96, 3]⟩

class Facts : Prop where
  bcast_S_S2097152x11 : S_.BroadcastsInDim S2097152x11 (![] : Fin 0 → Fin S2097152x11.rank)
  reducesTo_S2097152x11_S_d0_1 : S2097152x11.ReducesTo [0, 1] S_
  h_S_ : 0 < S_.numel
  bcast_S_S11x128 : S_.BroadcastsInDim S11x128 (![] : Fin 0 → Fin S11x128.rank)
  reducesTo_S11x128_S_d0_1 : S11x128.ReducesTo [0, 1] S_
  bcast_S_S1x128 : S_.BroadcastsInDim S1x128 (![] : Fin 0 → Fin S1x128.rank)
  reducesTo_S1x128_S_d0_1 : S1x128.ReducesTo [0, 1] S_
  bcast_S_S128x3 : S_.BroadcastsInDim S128x3 (![] : Fin 0 → Fin S128x3.rank)
  reducesTo_S128x3_S_d0_1 : S128x3.ReducesTo [0, 1] S_
  bcast_S_S1x3 : S_.BroadcastsInDim S1x3 (![] : Fin 0 → Fin S1x3.rank)
  reducesTo_S1x3_S_d0_1 : S1x3.ReducesTo [0, 1] S_
  slices_S128x3_S96x3_32_0 : S128x3.Slices ![32, 0] S96x3
  bcast_S_S96x3 : S_.BroadcastsInDim S96x3 (![] : Fin 0 → Fin S96x3.rank)
  reducesTo_S96x3_S_d0_1 : S96x3.ReducesTo [0, 1] S_

variable [Facts]

def fn_part1 {F : FTy → Type} [FloatOps F] (main_arg3 : FVec F S128x3 .f32) (main_arg4 : FVec F S1x3 .f32) (main_v13 : IVec S_ 1) (main_v16 : IVec S128x3 1) : IVec S_ 1 :=
  let main_c_5 : IVec S_ 1 := constantI S_ 1 1#1
  let main_v17 : IVec S_ 1 := (fun x v => Host.reduce IntOp.andi x v reducesTo_S128x3_S_d0_1 h_S_) main_v16 main_c_5
  let main_v18 : IVec S_ 1 := andi main_v13 main_v17
  let main_v19 : FVec F S1x3 .f32 := Host.absf main_arg4
  let main_cst_6 : FVec F S_ .f32 := constant S_ .f32 0x7F800000#32
  let main_v20 : FVec F S1x3 .f32 := broadcastInDim S1x3 ![] bcast_S_S1x3 main_cst_6
  let main_v21 : IVec S1x3 1 := cmpf .olt main_v19 main_v20
  let main_c_7 : IVec S_ 1 := constantI S_ 1 1#1
  let main_v22 : IVec S_ 1 := (fun x v => Host.reduce IntOp.andi x v reducesTo_S1x3_S_d0_1 h_S_) main_v21 main_c_7
  let main_v23 : IVec S_ 1 := andi main_v18 main_v22
  let main_v24 : FVec F S96x3 .f32 := (extractStridedSlice S96x3 ![32, 0] · slices_S128x3_S96x3_32_0) main_arg3
  let main_cst_8 : FVec F S_ .f32 := constant S_ .f32 0x00000000#32
  let main_v25 : FVec F S96x3 .f32 := broadcastInDim S96x3 ![] bcast_S_S96x3 main_cst_8
  let main_v26 : IVec S96x3 1 := cmpf .oeq main_v24 main_v25
  let main_c_9 : IVec S_ 1 := constantI S_ 1 1#1
  let main_v27 : IVec S_ 1 := (fun x v => Host.reduce IntOp.andi x v reducesTo_S96x3_S_d0_1 h_S_) main_v26 main_c_9
  let main_v28 : IVec S_ 1 := andi main_v23 main_v27
  main_v28

def fn {F : FTy → Type} [FloatOps F] (main_arg0 : FVec F S2097152x11 .f32) (main_arg1 : FVec F S11x128 .f32) (main_arg2 : FVec F S1x128 .f32) (main_arg3 : FVec F S128x3 .f32) (main_arg4 : FVec F S1x3 .f32) : IVec S_ 1 :=
  let main_v0 : FVec F S2097152x11 .f32 := Host.absf main_arg0
  let main_cst : FVec F S_ .f32 := constant S_ .f32 0x7F800000#32
  let main_v1 : FVec F S2097152x11 .f32 := broadcastInDim S2097152x11 ![] bcast_S_S2097152x11 main_cst
  let main_v2 : IVec S2097152x11 1 := cmpf .olt main_v0 main_v1
  let main_c : IVec S_ 1 := constantI S_ 1 1#1
  let main_v3 : IVec S_ 1 := (fun x v => Host.reduce IntOp.andi x v reducesTo_S2097152x11_S_d0_1 h_S_) main_v2 main_c
  let main_v4 : FVec F S11x128 .f32 := Host.absf main_arg1
  let main_cst_0 : FVec F S_ .f32 := constant S_ .f32 0x7F800000#32
  let main_v5 : FVec F S11x128 .f32 := broadcastInDim S11x128 ![] bcast_S_S11x128 main_cst_0
  let main_v6 : IVec S11x128 1 := cmpf .olt main_v4 main_v5
  let main_c_1 : IVec S_ 1 := constantI S_ 1 1#1
  let main_v7 : IVec S_ 1 := (fun x v => Host.reduce IntOp.andi x v reducesTo_S11x128_S_d0_1 h_S_) main_v6 main_c_1
  let main_v8 : IVec S_ 1 := andi main_v3 main_v7
  let main_v9 : FVec F S1x128 .f32 := Host.absf main_arg2
  let main_cst_2 : FVec F S_ .f32 := constant S_ .f32 0x7F800000#32
  let main_v10 : FVec F S1x128 .f32 := broadcastInDim S1x128 ![] bcast_S_S1x128 main_cst_2
  let main_v11 : IVec S1x128 1 := cmpf .olt main_v9 main_v10
  let main_c_3 : IVec S_ 1 := constantI S_ 1 1#1
  let main_v12 : IVec S_ 1 := (fun x v => Host.reduce IntOp.andi x v reducesTo_S1x128_S_d0_1 h_S_) main_v11 main_c_3
  let main_v13 : IVec S_ 1 := andi main_v8 main_v12
  let main_v14 : FVec F S128x3 .f32 := Host.absf main_arg3
  let main_cst_4 : FVec F S_ .f32 := constant S_ .f32 0x7F800000#32
  let main_v15 : FVec F S128x3 .f32 := broadcastInDim S128x3 ![] bcast_S_S128x3 main_cst_4
  let main_v16 : IVec S128x3 1 := cmpf .olt main_v14 main_v15
  fn_part1 (F := F) main_arg3 main_arg4 main_v13 main_v16
-- ==== Kernel.lean ====
abbrev S2097152x11 : Shape := ⟨2, ![2097152, 11]⟩
abbrev S11x128 : Shape := ⟨2, ![11, 128]⟩
abbrev S1x128 : Shape := ⟨2, ![1, 128]⟩
abbrev S128x3 : Shape := ⟨2, ![128, 3]⟩
abbrev S1x3 : Shape := ⟨2, ![1, 3]⟩
abbrev S11x32 : Shape := ⟨2, ![11, 32]⟩
abbrev S32x11 : Shape := ⟨2, ![32, 11]⟩
abbrev S1x32 : Shape := ⟨2, ![1, 32]⟩
abbrev S32x1 : Shape := ⟨2, ![32, 1]⟩
abbrev S32x3 : Shape := ⟨2, ![32, 3]⟩
abbrev S3x32 : Shape := ⟨2, ![3, 32]⟩
abbrev S3x1 : Shape := ⟨2, ![3, 1]⟩
abbrev S11x2097152 : Shape := ⟨2, ![11, 2097152]⟩
abbrev S3x2097152 : Shape := ⟨2, ![3, 2097152]⟩
abbrev S11x65536 : Shape := ⟨2, ![11, 65536]⟩
abbrev S3x65536 : Shape := ⟨2, ![3, 65536]⟩
abbrev S32x65536 : Shape := ⟨2, ![32, 65536]⟩
abbrev S2097152x3 : Shape := ⟨2, ![2097152, 3]⟩

abbrev nBuf : Space → Nat
  | .hbm => 17
  | .vmem => 8
  | .smem => 0
  | _ => 0

abbrev bufTy : (tb : Table) → Fin (tcTables nBuf tb) → BufTy
  | .hbm, ⟨0, _⟩ => ⟨S2097152x11, .f32⟩
  | .hbm, ⟨1, _⟩ => ⟨S11x128, .f32⟩
  | .hbm, ⟨2, _⟩ => ⟨S1x128, .f32⟩
  | .hbm, ⟨3, _⟩ => ⟨S128x3, .f32⟩
  | .hbm, ⟨4, _⟩ => ⟨S1x3, .f32⟩
  | .hbm, ⟨5, _⟩ => ⟨S11x32, .f32⟩
  | .hbm, ⟨6, _⟩ => ⟨S32x11, .f32⟩
  | .hbm, ⟨7, _⟩ => ⟨S32x11, .bf16⟩
  | .hbm, ⟨8, _⟩ => ⟨S1x32, .f32⟩
  | .hbm, ⟨9, _⟩ => ⟨S32x1, .f32⟩
  | .hbm, ⟨10, _⟩ => ⟨S32x3, .f32⟩
  | .hbm, ⟨11, _⟩ => ⟨S3x32, .f32⟩
  | .hbm, ⟨12, _⟩ => ⟨S3x32, .bf16⟩
  | .hbm, ⟨13, _⟩ => ⟨S3x1, .f32⟩
  | .hbm, ⟨14, _⟩ => ⟨S11x2097152, .f32⟩
  | .hbm, ⟨15, _⟩ => ⟨S3x2097152, .f32⟩
  | .hbm, ⟨16, _⟩ => ⟨S2097152x3, .f32⟩
  | .local _ .vmem, ⟨0, _⟩ => ⟨S11x65536, .f32⟩
  | .local _ .vmem, ⟨1, _⟩ => ⟨S11x65536, .f32⟩
  | .local _ .vmem, ⟨2, _⟩ => ⟨S32x11, .bf16⟩
  | .local _ .vmem, ⟨3, _⟩ => ⟨S32x1, .f32⟩
  | .local _ .vmem, ⟨4, _⟩ => ⟨S3x32, .bf16⟩
  | .local _ .vmem, ⟨5, _⟩ => ⟨S3x1, .f32⟩
  | .local _ .vmem, ⟨6, _⟩ => ⟨S3x65536, .f32⟩
  | .local _ .vmem, ⟨7, _⟩ => ⟨S3x65536, .f32⟩
  | _, _ => ⟨S2097152x11, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S11x65536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x11 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x32 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S3x65536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S11x128_S11x32_0_0 : S11x128.Slices ![0, 0] S11x32
  transposes_S11x32_S32x11_1_0 : S11x32.Transposes [1, 0] S32x11
  bitsLt_bf16_f32 : FTy.bits .bf16 < FTy.bits .f32
  slices_S1x128_S1x32_0_0 : S1x128.Slices ![0, 0] S1x32
  transposes_S1x32_S32x1_1_0 : S1x32.Transposes [1, 0] S32x1
  slices_S128x3_S32x3_0_0 : S128x3.Slices ![0, 0] S32x3
  transposes_S32x3_S3x32_1_0 : S32x3.Transposes [1, 0] S3x32
  transposes_S1x3_S3x1_1_0 : S1x3.Transposes [1, 0] S3x1
  transposes_S2097152x11_S11x2097152_1_0 : S2097152x11.Transposes [1, 0] S11x2097152
  inb_S11x65536_S11x65536_0_0 : ∀ a, (![0, 0] : Fin 2 → Nat) a + S11x65536.size a ≤ S11x65536.size a
  h_S11x65536 : 0 < S11x65536.numel
  shapeCasts_S11x65536_S11x65536 : S11x65536.ShapeCasts S11x65536
  inb_S32x11_S32x11_0_0 : ∀ a, (![0, 0] : Fin 2 → Nat) a + S32x11.size a ≤ S32x11.size a
  h_S32x11 : 0 < S32x11.numel
  shapeCasts_S32x11_S32x11 : S32x11.ShapeCasts S32x11
  inb_S32x1_S32x1_0_0 : ∀ a, (![0, 0] : Fin 2 → Nat) a + S32x1.size a ≤ S32x1.size a
  h_S32x1 : 0 < S32x1.numel
  shapeCasts_S32x1_S32x1 : S32x1.ShapeCasts S32x1
  broadcasts_S32x1_S32x65536 : S32x1.Broadcasts S32x65536
  inb_S3x32_S3x32_0_0 : ∀ a, (![0, 0] : Fin 2 → Nat) a + S3x32.size a ≤ S3x32.size a
  h_S3x32 : 0 < S3x32.numel
  shapeCasts_S3x32_S3x32 : S3x32.ShapeCasts S3x32
  inb_S3x1_S3x1_0_0 : ∀ a, (![0, 0] : Fin 2 → Nat) a + S3x1.size a ≤ S3x1.size a
  h_S3x1 : 0 < S3x1.numel
  shapeCasts_S3x1_S3x1 : S3x1.ShapeCasts S3x1
  broadcasts_S3x1_S3x65536 : S3x1.Broadcasts S3x65536
  inb_S3x65536_S3x65536_0_0 : ∀ a, (![0, 0] : Fin 2 → Nat) a + S3x65536.size a ≤ S3x65536.size a
  h_S3x65536 : 0 < S3x65536.numel
  transposes_S3x2097152_S2097152x3_1_0 : S3x2097152.Transposes [1, 0] S2097152x3
  dot_S32x11_S11x65536_S32x65536_1_0_0_1_n_n_wf : DotDims.WF S32x11 S11x65536 S32x65536 [1] [0] [0] [1] [] []
  dot_S3x32_S32x65536_S3x65536_1_0_0_1_n_n_wf : DotDims.WF S3x32 S32x65536 S3x65536 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S11x65536.size a ≤ S11x2097152.size a
  hwx0_0 : ∀ i : grid0.Coords, EltTy.bits .f32 = 32 ∨ (Rect.block (s := S11x2097152) S11x65536.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x11.size a ≤ S32x11.size a
  hwx0_1 : ∀ i : grid0.Coords, EltTy.bits .bf16 = 32 ∨ (Rect.block (s := S32x11) S32x11.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x1.size a ≤ S32x1.size a
  hwx0_2 : ∀ i : grid0.Coords, EltTy.bits .f32 = 32 ∨ (Rect.block (s := S32x1) S32x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3x32.size a ≤ S3x32.size a
  hwx0_3 : ∀ i : grid0.Coords, EltTy.bits .bf16 = 32 ∨ (Rect.block (s := S3x32) S3x32.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S3x1.size a ≤ S3x1.size a
  hwx0_4 : ∀ i : grid0.Coords, EltTy.bits .f32 = 32 ∨ (Rect.block (s := S3x1) S3x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S3x65536.size a ≤ S3x2097152.size a
  hwx0_5 : ∀ i : grid0.Coords, EltTy.bits .f32 = 32 ∨ (Rect.block (s := S3x2097152) S3x65536.size (cc0_transform_5 i) (hinb0_5 i)).WholeWords (EltTy.packing .f32)

variable [Facts₀]

def dot_S32x11_S11x65536_S32x65536_1_0_0_1_n_n : DotDims S32x11 S11x65536 S32x65536 where
  lhsContracting := [1]
  rhsContracting := [0]
  lhsNonContracting := [0]
  rhsNonContracting := [1]
  lhsBatch := []
  rhsBatch := []
  wf := dot_S32x11_S11x65536_S32x65536_1_0_0_1_n_n_wf
def dot_S3x32_S32x65536_S3x65536_1_0_0_1_n_n : DotDims S3x32 S32x65536 S3x65536 where
  lhsContracting := [1]
  rhsContracting := [0]
  lhsNonContracting := [0]
  rhsNonContracting := [1]
  lhsBatch := []
  rhsBatch := []
  wf := dot_S3x32_S32x65536_S3x65536_1_0_0_1_n_n_wf

abbrev win0_0 : Pipeline.Window sig grid0 :=
  Pipeline.Window.ofSpec (Memref.whole main_v9) S11x65536.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S32x11.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S32x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S3x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S3x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v10) S3x65536.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S2097152x11 : Shape := ⟨2, ![2097152, 11]⟩
abbrev S11x128 : Shape := ⟨2, ![11, 128]⟩
abbrev S1x128 : Shape := ⟨2, ![1, 128]⟩
abbrev S128x3 : Shape := ⟨2, ![128, 3]⟩
abbrev S1x3 : Shape := ⟨2, ![1, 3]⟩
abbrev S2097152x3 : Shape := ⟨2, ![2097152, 3]⟩
abbrev S2048x11 : Shape := ⟨2, ![2048, 11]⟩
abbrev S2048x3 : Shape := ⟨2, ![2048, 3]⟩
abbrev S2048x128 : Shape := ⟨2, ![2048, 128]⟩

abbrev nBuf : Space → Nat
  | .hbm => 6
  | .vmem => 8
  | .smem => 0
  | _ => 0

abbrev bufTy : (tb : Table) → Fin (tcTables nBuf tb) → BufTy
  | .hbm, ⟨0, _⟩ => ⟨S2097152x11, .f32⟩
  | .hbm, ⟨1, _⟩ => ⟨S11x128, .f32⟩
  | .hbm, ⟨2, _⟩ => ⟨S1x128, .f32⟩
  | .hbm, ⟨3, _⟩ => ⟨S128x3, .f32⟩
  | .hbm, ⟨4, _⟩ => ⟨S1x3, .f32⟩
  | .hbm, ⟨5, _⟩ => ⟨S2097152x3, .f32⟩
  | .local _ .vmem, ⟨0, _⟩ => ⟨S2048x11, .f32⟩
  | .local _ .vmem, ⟨1, _⟩ => ⟨S2048x11, .f32⟩
  | .local _ .vmem, ⟨2, _⟩ => ⟨S11x128, .f32⟩
  | .local _ .vmem, ⟨3, _⟩ => ⟨S1x128, .f32⟩
  | .local _ .vmem, ⟨4, _⟩ => ⟨S128x3, .f32⟩
  | .local _ .vmem, ⟨5, _⟩ => ⟨S1x3, .f32⟩
  | .local _ .vmem, ⟨6, _⟩ => ⟨S2048x3, .f32⟩
  | .local _ .vmem, ⟨7, _⟩ => ⟨S2048x3, .f32⟩
  | _, _ => ⟨S2097152x11, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![1024], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x11 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S11x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x3 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x3 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2048x3 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  inb_S2048x11_S2048x11_0_0 : ∀ a, (![0, 0] : Fin 2 → Nat) a + S2048x11.size a ≤ S2048x11.size a
  h_S2048x11 : 0 < S2048x11.numel
  inb_S11x128_S11x128_0_0 : ∀ a, (![0, 0] : Fin 2 → Nat) a + S11x128.size a ≤ S11x128.size a
  h_S11x128 : 0 < S11x128.numel
  inb_S1x128_S1x128_0_0 : ∀ a, (![0, 0] : Fin 2 → Nat) a + S1x128.size a ≤ S1x128.size a
  h_S1x128 : 0 < S1x128.numel
  broadcasts_S1x128_S2048x128 : S1x128.Broadcasts S2048x128
  inb_S128x3_S128x3_0_0 : ∀ a, (![0, 0] : Fin 2 → Nat) a + S128x3.size a ≤ S128x3.size a
  h_S128x3 : 0 < S128x3.numel
  inb_S1x3_S1x3_0_0 : ∀ a, (![0, 0] : Fin 2 → Nat) a + S1x3.size a ≤ S1x3.size a
  h_S1x3 : 0 < S1x3.numel
  broadcasts_S1x3_S2048x3 : S1x3.Broadcasts S2048x3
  inb_S2048x3_S2048x3_0_0 : ∀ a, (![0, 0] : Fin 2 → Nat) a + S2048x3.size a ≤ S2048x3.size a
  h_S2048x3 : 0 < S2048x3.numel
  dot_S2048x11_S11x128_S2048x128_1_0_0_1_n_n_wf : DotDims.WF S2048x11 S11x128 S2048x128 [1] [0] [0] [1] [] []
  dot_S2048x128_S128x3_S2048x3_1_0_0_1_n_n_wf : DotDims.WF S2048x128 S128x3 S2048x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x11.size a ≤ S2097152x11.size a
  hwx0_0 : ∀ i : grid0.Coords, EltTy.bits .f32 = 32 ∨ (Rect.block (s := S2097152x11) S2048x11.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S11x128.size a ≤ S11x128.size a
  hwx0_1 : ∀ i : grid0.Coords, EltTy.bits .f32 = 32 ∨ (Rect.block (s := S11x128) S11x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x3.size a ≤ S128x3.size a
  hwx0_3 : ∀ i : grid0.Coords, EltTy.bits .f32 = 32 ∨ (Rect.block (s := S128x3) S128x3.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x3.size a ≤ S1x3.size a
  hwx0_4 : ∀ i : grid0.Coords, EltTy.bits .f32 = 32 ∨ (Rect.block (s := S1x3) S1x3.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x3.size a ≤ S2097152x3.size a
  hwx0_5 : ∀ i : grid0.Coords, EltTy.bits .f32 = 32 ∨ (Rect.block (s := S2097152x3) S2048x3.size (cc0_transform_5 i) (hinb0_5 i)).WholeWords (EltTy.packing .f32)

variable [Facts₀]

def dot_S2048x11_S11x128_S2048x128_1_0_0_1_n_n : DotDims S2048x11 S11x128 S2048x128 where
  lhsContracting := [1]
  rhsContracting := [0]
  lhsNonContracting := [0]
  rhsNonContracting := [1]
  lhsBatch := []
  rhsBatch := []
  wf := dot_S2048x11_S11x128_S2048x128_1_0_0_1_n_n_wf
def dot_S2048x128_S128x3_S2048x3_1_0_0_1_n_n : DotDims S2048x128 S128x3 S2048x3 where
  lhsContracting := [1]
  rhsContracting := [0]
  lhsNonContracting := [0]
  rhsNonContracting := [1]
  lhsBatch := []
  rhsBatch := []
  wf := dot_S2048x128_S128x3_S2048x3_1_0_0_1_n_n_wf

abbrev win0_0 : Pipeline.Window sig grid0 :=
  Pipeline.Window.ofSpec (Memref.whole main_arg0) S2048x11.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S11x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x3.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x3.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S2048x3.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== Proof.Net.lean ====
/-
  The two-layer network  y = max(x · W1 + b1, z) · W2 + b2  on the extended reals, one entry at a time, in the two
  arrangements the two programs compute.

  The weights arrive with the hidden axis padded from 32 to 128 lanes: W1 is 11 × 128, b1 is 1 × 128, W2 is 128 × 3.
  The wide arrangement sums the second product over all 128 hidden lanes.  The narrow arrangement sums it over the
  first 32 lanes only and writes every product with its factors in the other order (it is the transposed computation
  W2ᵀ · max(W1ᵀ · xᵀ + b1ᵀ, z) + b2ᵀ read back at the untransposed index).

  When rows 32 … 127 of W2 are zero the two agree: each dropped term is (hidden value) · 0 = 0, which holds for every
  extended real, the infinities included, so no finiteness is used; the rest is commutativity of the product.
-/
import Idealize.ShloMosaic.PureOps.Ideal.Laws
import Idealize.ShloMosaic.Lib.ValueIdx

noncomputable section

namespace Cert.Net

open Idealize.ShloMosaic Idealize.ShloMosaic.ValueIdx

abbrev SX : Shape := ⟨2, ![2097152, 11]⟩
abbrev SW1 : Shape := ⟨2, ![11, 128]⟩
abbrev SB1 : Shape := ⟨2, ![1, 128]⟩
abbrev SW2 : Shape := ⟨2, ![128, 3]⟩
abbrev SB2 : Shape := ⟨2, ![1, 3]⟩
abbrev SY : Shape := ⟨2, ![2097152, 3]⟩

/-- Hidden lane j < 32 as one of the 128 padded lanes. -/
abbrev up (j : Fin 32) : Fin 128 := Fin.castLE (by decide) j

theorem up_val (j : Fin 32) : (up j).val = j.val := rfl

variable (z : EReal) (x : SX.Idx → EReal) (w1 : SW1.Idx → EReal) (b1 : SB1.Idx → EReal) (w2 : SW2.Idx → EReal) (b2 : SB2.Idx → EReal)

/-- Hidden lane j of batch row b: the affine map of the row, cut below at z. -/
def hid (b : Fin 2097152) (j : Fin 128) : EReal :=
  max ((∑ k : Fin 11, x (ix2 b k) * w1 (ix2 k j)) + b1 (ix2 (0 : Fin 1) j)) z

/-- Entry (b, o) summed over all 128 hidden lanes. -/
def wideAt (b : Fin 2097152) (o : Fin 3) : EReal :=
  (∑ j : Fin 128, hid z x w1 b1 b j * w2 (ix2 j o)) + b2 (ix2 (0 : Fin 1) o)

/-- Entry (b, o) summed over the first 32 hidden lanes, each product written weight first. -/
def narrowAt (b : Fin 2097152) (o : Fin 3) : EReal :=
  (∑ j : Fin 32, w2 (ix2 (up j) o) * max ((∑ k : Fin 11, w1 (ix2 k (up j)) * x (ix2 b k)) + b1 (ix2 (0 : Fin 1) (up j))) z)
    + b2 (ix2 (0 : Fin 1) o)

/-- The whole result in the wide arrangement. -/
def wide : SY.Idx → EReal := fun i => wideAt z x w1 b1 w2 b2 (i 0) (i 1)

/-- The whole result in the narrow arrangement. -/
def narrow : SY.Idx → EReal := fun i => narrowAt z x w1 b1 w2 b2 (i 0) (i 1)

/-- With rows 32 … 127 of W2 zero, the 96 dropped lanes contribute nothing and the two arrangements agree. -/
theorem narrowAt_eq_wideAt (h : ∀ (j : Fin 128) (o : Fin 3), 32 ≤ j.val → w2 (ix2 j o) = 0) (b : Fin 2097152) (o : Fin 3) :
    narrowAt z x w1 b1 w2 b2 b o = wideAt z x w1 b1 w2 b2 b o := by
  unfold narrowAt wideAt
  congr 1
  have e : ∀ j : Fin 32,
      w2 (ix2 (up j) o) * max ((∑ k : Fin 11, w1 (ix2 k (up j)) * x (ix2 b k)) + b1 (ix2 (0 : Fin 1) (up j))) z
        = (fun j : Fin 128 => hid z x w1 b1 b j * w2 (ix2 j o)) (Fin.castLEEmb (by decide : 32 ≤ 128) j) := fun j => by
    show _ = hid z x w1 b1 b (up j) * w2 (ix2 (up j) o)
    unfold hid
    rw [mul_comm]
    congr 3
    exact Finset.sum_congr rfl fun k _ => mul_comm _ _
  rw [Finset.sum_congr rfl fun j _ => e j, ← Finset.sum_map Finset.univ (Fin.castLEEmb (by decide : 32 ≤ 128))
    (fun j : Fin 128 => hid z x w1 b1 b j * w2 (ix2 j o))]
  refine Finset.sum_subset (Finset.subset_univ _) fun j _ hj => ?_
  have hge : 32 ≤ j.val := by
    by_contra hlt
    exact hj (Finset.mem_map.mpr ⟨⟨j.val, Nat.lt_of_not_le hlt⟩, Finset.mem_univ _, Fin.ext rfl⟩)
  show hid z x w1 b1 b j * w2 (ix2 j o) = 0
  rw [h j o hge, mul_zero]

theorem narrow_eq_wide (h : ∀ (j : Fin 128) (o : Fin 3), 32 ≤ j.val → w2 (ix2 j o) = 0) :
    narrow z x w1 b1 w2 b2 = wide z x w1 b1 w2 b2 :=
  funext fun i => narrowAt_eq_wideAt z x w1 b1 w2 b2 h (i 0) (i 1)

end Cert.Net

end
-- ==== Proof.KerHost.lean ====
/-
  What the kernel's region finds in its five input arrays.  Before the region the host cuts the padded weights down
  to the first 32 hidden lanes and transposes everything:
      xᵀ(k, b)  = x(b, k)            W1ᵀ(j, k) = W1(k, j)   for j < 32
      b1ᵀ(j, 0) = b1(0, j)  (j < 32) W2ᵀ(o, j) = W2(j, o)   for j < 32        b2ᵀ(o, 0) = b2(0, o)
  (the two changes of float format are the identity on extended reals).  Each is read here at an index.
-/
import proofs.«165777_g2000302404671483_pallasbulk_1282_8_alg».proof.Proof.Gen.KernelIdeal.Frame
import proofs.«165777_g2000302404671483_pallasbulk_1282_8_alg».proof.Proof.Net
import Idealize.ShloMosaic.Lib.StableHlo.Run
import Idealize.ShloMosaic.Lib.ValueLayout
import Idealize.ShloMosaic.Lib.Pipeline.Value

noncomputable section

namespace Cert.KernelIdeal.Hand

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ)

/-- The five argument arrays on core c. -/
abbrev aX (c : Dev nD) : S2097152x11.Idx → EReal := m ((c : Thread nD τ).loc main_arg0)
abbrev aW1 (c : Dev nD) : S11x128.Idx → EReal := m ((c : Thread nD τ).loc main_arg1)
abbrev aB1 (c : Dev nD) : S1x128.Idx → EReal := m ((c : Thread nD τ).loc main_arg2)
abbrev aW2 (c : Dev nD) : S128x3.Idx → EReal := m ((c : Thread nD τ).loc main_arg3)
abbrev aB2 (c : Dev nD) : S1x3.Idx → EReal := m ((c : Thread nD τ).loc main_arg4)

/-- xᵀ(k, b) = x(b, k). -/
theorem entry_xT (c : Dev nD) (k : Fin 11) (b : Fin 2097152) :
    (V m c main_v9 : S11x2097152.Idx → EReal) (ix2 k b) = aX m c (ix2 b k) := by
  have e : (V m c main_v9 : S11x2097152.Idx → EReal)
      = transpose S11x2097152 [1, 0] (aX m c) transposes_S2097152x11_S11x2097152_1_0 := by
    show StableHlo.after hostOps0 (fun b => m (c, b)) (Proc.devRef .tc main_v9) = _
    after_results <;> rfl
  rw [e, transpose_ix2_apply]

/-- W1ᵀ(j, k) = W1(k, j) for the first 32 hidden lanes j. -/
theorem entry_w1T (c : Dev nD) (j : Fin 32) (k : Fin 11) :
    (V m c main_v2 : S32x11.Idx → EReal) (ix2 j k) = aW1 m c (ix2 k (Cert.Net.up j)) := by
  have e : (V m c main_v2 : S32x11.Idx → EReal)
      = (truncf (F := Ideal) .bf16 (transpose S32x11 [1, 0]
            (extractStridedSlice S11x32 ![0, 0] (aW1 m c) slices_S11x128_S11x32_0_0 : FVec Ideal S11x32 .f32)
          transposes_S11x32_S32x11_1_0 : FVec Ideal S32x11 .f32) bitsLt_bf16_f32 : FVec Ideal S32x11 .bf16) := by
    show StableHlo.after hostOps0 (fun b => m (c, b)) (Proc.devRef .tc main_v2) = _
    after_results <;> rfl
  rw [e, truncf_apply, transpose_ix2_apply]
  exact extractStridedSlice_apply _ _ _ (ix2 k j) (ix2 k (Cert.Net.up j)) fun a => by
    match a with
    | ⟨0, _⟩ => show k.val = 0 + k.val; omega
    | ⟨1, _⟩ => show j.val = 0 + j.val; omega

/-- b1ᵀ(j, 0) = b1(0, j) for the first 32 hidden lanes j. -/
theorem entry_b1T (c : Dev nD) (j : Fin 32) (u : Fin 1) :
    (V m c main_v4 : S32x1.Idx → EReal) (ix2 j u) = aB1 m c (ix2 u (Cert.Net.up j)) := by
  have e : (V m c main_v4 : S32x1.Idx → EReal)
      = transpose S32x1 [1, 0] (extractStridedSlice S1x32 ![0, 0] (aB1 m c) slices_S1x128_S1x32_0_0) transposes_S1x32_S32x1_1_0 := by
    show StableHlo.after hostOps0 (fun b => m (c, b)) (Proc.devRef .tc main_v4) = _
    after_results <;> rfl
  rw [e, transpose_ix2_apply]
  exact extractStridedSlice_apply _ _ _ (ix2 u j) (ix2 u (Cert.Net.up j)) fun a => by
    match a with
    | ⟨0, _⟩ => show u.val = 0 + u.val; omega
    | ⟨1, _⟩ => show j.val = 0 + j.val; omega

/-- W2ᵀ(o, j) = W2(j, o) for the first 32 hidden lanes j. -/
theorem entry_w2T (c : Dev nD) (o : Fin 3) (j : Fin 32) :
    (V m c main_v7 : S3x32.Idx → EReal) (ix2 o j) = aW2 m c (ix2 (Cert.Net.up j) o) := by
  have e : (V m c main_v7 : S3x32.Idx → EReal)
      = (truncf (F := Ideal) .bf16 (transpose S3x32 [1, 0]
            (extractStridedSlice S32x3 ![0, 0] (aW2 m c) slices_S128x3_S32x3_0_0 : FVec Ideal S32x3 .f32)
          transposes_S32x3_S3x32_1_0 : FVec Ideal S3x32 .f32) bitsLt_bf16_f32 : FVec Ideal S3x32 .bf16) := by
    show StableHlo.after hostOps0 (fun b => m (c, b)) (Proc.devRef .tc main_v7) = _
    after_results <;> rfl
  rw [e, truncf_apply, transpose_ix2_apply]
  exact extractStridedSlice_apply _ _ _ (ix2 j o) (ix2 (Cert.Net.up j) o) fun a => by
    match a with
    | ⟨0, _⟩ => show j.val = 0 + j.val; omega
    | ⟨1, _⟩ => show o.val = 0 + o.val; omega

/-- b2ᵀ(o, 0) = b2(0, o). -/
theorem entry_b2T (c : Dev nD) (o : Fin 3) (u : Fin 1) :
    (V m c main_v8 : S3x1.Idx → EReal) (ix2 o u) = aB2 m c (ix2 u o) := by
  have e : (V m c main_v8 : S3x1.Idx → EReal) = transpose S3x1 [1, 0] (aB2 m c) transposes_S1x3_S3x1_1_0 := by
    show StableHlo.after hostOps0 (fun b => m (c, b)) (Proc.devRef .tc main_v8) = _
    after_results <;> rfl
  rw [e, transpose_ix2_apply]

end Cert.KernelIdeal.Hand

end
-- ==== Proof.LibMatmulSum.lean ====
/-
  A plain matrix product  [n, K] x [K, w] -> [n, w]  at the ideal values, for any contraction length K and whichever
  record of dimension numbers spells it: the sum over the record's own contraction index, read at entry (p, q), is the
  sum over k < K of left(p, k) * right(k, q).  A kernel's matrix-unit product into a zero accumulator is that sum.
  The record enters only through six facts about its index maps (one contracted axis of extent K; the left operand
  contracted on its axis 1, the right on its axis 0; the result's axes the left's axis 0 and the right's axis 1).
-/
import Idealize.ShloMosaic.PureOps.Ideal.Laws
import Idealize.ShloMosaic.Lib.Pipeline.Value
import Idealize.ShloMosaic.Lib.ValueIdx

noncomputable section

namespace Cert.LibMatmulSum

open Idealize.ShloMosaic Idealize.ShloMosaic.ValueIdx

/-- The index facts of a plain product with contraction length `K`. -/
structure Plain {n K w : ℕ} (d : DotDims ⟨2, ![n, K]⟩ ⟨2, ![K, w]⟩ ⟨2, ![n, w]⟩) : Prop where
  rank : d.contr.rank = 1
  size : d.contr.size ⟨0, by rw [rank]; exact Nat.one_pos⟩ = K
  l0 : ∀ (i : (⟨2, ![n, w]⟩ : Shape).Idx) (q : d.contr.Idx), (d.lhsIdx i q 0).val = (i 0).val
  l1 : ∀ (i : (⟨2, ![n, w]⟩ : Shape).Idx) (q : d.contr.Idx), (d.lhsIdx i q 1).val = (q ⟨0, by rw [rank]; exact Nat.one_pos⟩).val
  r0 : ∀ (i : (⟨2, ![n, w]⟩ : Shape).Idx) (q : d.contr.Idx), (d.rhsIdx i q 0).val = (q ⟨0, by rw [rank]; exact Nat.one_pos⟩).val
  r1 : ∀ (i : (⟨2, ![n, w]⟩ : Shape).Idx) (q : d.contr.Idx), (d.rhsIdx i q 1).val = (i 1).val

/-- The contraction sum at entry (p, q), re-indexed by k < K. -/
theorem sum_eq {n K w : ℕ} {d : DotDims ⟨2, ![n, K]⟩ ⟨2, ![K, w]⟩ ⟨2, ![n, w]⟩} (hd : Plain d)
    (l : (⟨2, ![n, K]⟩ : Shape).Idx → EReal) (r : (⟨2, ![K, w]⟩ : Shape).Idx → EReal) (p : Fin n) (q : Fin w) :
    (∑ k : d.contr.Idx, l (d.lhsIdx (ix2 p q) k) * r (d.rhsIdx (ix2 p q) k)) = ∑ k : Fin K, l (ix2 p k) * r (ix2 k q) := by
  rw [← Equiv.sum_comp (contrEquiv1 d K hd.rank hd.size).symm]
  refine Finset.sum_congr rfl fun k _ => ?_
  have hk := contrEquiv1_symm_val d K hd.rank hd.size k
  have el : d.lhsIdx (ix2 p q) ((contrEquiv1 d K hd.rank hd.size).symm k) = ix2 p k := funext fun a => Fin.ext (by
    match a with
    | ⟨0, _⟩ => exact hd.l0 _ _
    | ⟨1, _⟩ => exact (hd.l1 _ _).trans hk)
  have er : d.rhsIdx (ix2 p q) ((contrEquiv1 d K hd.rank hd.size).symm k) = ix2 k q := funext fun a => Fin.ext (by
    match a with
    | ⟨0, _⟩ => exact (hd.r0 _ _).trans hk
    | ⟨1, _⟩ => exact hd.r1 _ _)
  rw [el, er]

/-- A matrix-unit product into the zero accumulator, at entry (p, q). -/
theorem matmul_zero_at {n K w : ℕ} {d : DotDims ⟨2, ![n, K]⟩ ⟨2, ![K, w]⟩ ⟨2, ![n, w]⟩} (hd : Plain d) {φ₁ φ₂ : FTy}
    (prec : Option ContractPrecision) (l : FVec Ideal ⟨2, ![n, K]⟩ φ₁) (r : FVec Ideal ⟨2, ![K, w]⟩ φ₂) (p : Fin n) (q : Fin w) :
    FloatOps.matmul d prec l r (constant ⟨2, ![n, w]⟩ .f32 0x00000000#32) (ix2 p q) = ∑ k : Fin K, l (ix2 p k) * r (ix2 k q) :=
  (Ideal.matmul_constant_zero_apply d prec l r (ix2 p q)).trans (sum_eq hd l r p q)

end Cert.LibMatmulSum

end
-- ==== Proof.LibPlainLists.lean ====
/-
  A record of dimension numbers whose six lists are those of the plain product  [n, K] x [K, w] -> [n, w]  (left
  contracted on axis 1, right on axis 0, the result's axes the left's axis 0 then the right's axis 1, no batch axes)
  has the six index facts of a plain product: one contracted axis of extent K, and the operands read at
  (p, k) and (k, q) for the result's entry (p, q) and contraction position k.
-/
import proofs.«165777_g2000302404671483_pallasbulk_1282_8_alg».proof.Proof.LibMatmulSum

noncomputable section

namespace Cert.LibMatmulSum

open Idealize.ShloMosaic

theorem Plain.of_lists {n K w : ℕ} (d : DotDims ⟨2, ![n, K]⟩ ⟨2, ![K, w]⟩ ⟨2, ![n, w]⟩)
    (hlc : d.lhsContracting = [1]) (hrc : d.rhsContracting = [0]) (hln : d.lhsNonContracting = [0])
    (hrn : d.rhsNonContracting = [1]) (hlb : d.lhsBatch = []) (hrb : d.rhsBatch = []) : Plain d := by
  have hrank : d.contr.rank = 1 := by rw [d.rank_contr, hlc]; rfl
  have keyI : ∀ (i : (⟨2, ![n, w]⟩ : Shape).Idx) (p q : Nat) (hp : p < 2) (hq : q < 2), p = q → (i ⟨p, hp⟩).val = (i ⟨q, hq⟩).val :=
    fun i p q hp hq h => by subst h; rfl
  have keyK : ∀ (k : d.contr.Idx) (p q : Nat) (hp : p < d.contr.rank) (hq : q < d.contr.rank), p = q → (k ⟨p, hp⟩).val = (k ⟨q, hq⟩).val :=
    fun k p q hp hq h => by subst h; rfl
  refine ⟨hrank, ?_, ?_, ?_, ?_, ?_⟩
  · have h0 : 0 < d.lhsContracting.length := by rw [hlc]; exact Nat.one_pos
    have e : d.lhsContracting[0] = (1 : Fin 2) := by simp [hlc]
    exact (d.size_contr 0 h0).trans (by rw [e]; rfl)
  · intro i q
    unfold DotDims.lhsIdx
    rw [dif_neg (by rw [hlb]; exact List.not_mem_nil), dif_pos (by rw [hln]; exact List.mem_singleton.mpr rfl)]
    simp only [Fin.val_cast]
    exact keyI i _ _ _ _ (by simp [hlb, hln])
  · intro i q
    unfold DotDims.lhsIdx
    rw [dif_neg (by rw [hlb]; exact List.not_mem_nil), dif_neg (by rw [hln]; exact fun h => absurd (show (1 : ℕ) = 0 from congrArg Fin.val (List.mem_singleton.mp h)) Nat.one_ne_zero)]
    simp only [Fin.val_cast]
    exact keyK q _ _ _ _ (by simp [hlc])
  · intro i q
    unfold DotDims.rhsIdx
    rw [dif_neg (by rw [hrb]; exact List.not_mem_nil), dif_neg (by rw [hrn]; exact fun h => absurd (show (0 : ℕ) = 1 from congrArg Fin.val (List.mem_singleton.mp h)) Nat.zero_ne_one)]
    simp only [Fin.val_cast]
    exact keyK q _ _ _ _ (by simp [hrc])
  · intro i q
    unfold DotDims.rhsIdx
    rw [dif_neg (by rw [hrb]; exact List.not_mem_nil), dif_pos (by rw [hrn]; exact List.mem_singleton.mpr rfl)]
    simp only [Fin.val_cast]
    exact keyI i _ _ _ _ (by simp [hlb, hln, hrn])

end Cert.LibMatmulSum

end
-- ==== Proof.LibKeepdims.lean ====
/-
  Two layout facts for a row-wise reduction kept as a column: a vector of length a read as an a × 1 column, and an a × 1
  column repeated along b columns. Both are stated at an explicit index (row p, column c), over any element type.
-/
import Idealize.ShloMosaic.Lib.Pipeline.Value
import Idealize.ShloMosaic.Lib.ValueIdx

namespace Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.KerEntry.lean ====
/-
  One entry of what the kernel's body stores.  The body works in the transposed domain on a tile of 65536 batch
  columns: it multiplies W1ᵀ (32 × 11) by the tile of xᵀ (11 × 65536), adds the column b1ᵀ to every column, cuts below
  at the zero word, multiplies W2ᵀ (3 × 32) by the result and adds the column b2ᵀ.  Changes of float format are the
  identity on extended reals.  Entry (o, l) of the stored tile is therefore
      Σ_{j<32} W2ᵀ(o,j) · max(Σ_{k<11} W1ᵀ(j,k) · tile(k,l) + b1ᵀ(j,0), z) + b2ᵀ(o,0),
  each matrix product into a zero accumulator being the plain sum over its contracted axis.
-/
import proofs.«165777_g2000302404671483_pallasbulk_1282_8_alg».proof.Proof.Gen.KernelIdeal.Skeleton
import proofs.«165777_g2000302404671483_pallasbulk_1282_8_alg».proof.Proof.LibPlainLists
import proofs.«165777_g2000302404671483_pallasbulk_1282_8_alg».proof.Proof.LibKeepdims

noncomputable section

namespace Cert.KernelIdeal.Hand

open Cert.KernelIdeal Cert.KernelIdeal.Gen Idealize.ShloMosaic Idealize.ShloMosaic.ValueIdx

/-- The word the hidden values are cut below at, read as an extended real. -/
abbrev zw : EReal := (Scalar.ofBits (F := Ideal) .f32 0x00000000#32 : Ideal .f32)

/-- The first product, W1ᵀ by the tile, is a plain one with 11 contracted positions. -/
theorem plain1 : Cert.LibMatmulSum.Plain dot_S32x11_S11x65536_S32x65536_1_0_0_1_n_n :=
  Cert.LibMatmulSum.Plain.of_lists _ rfl rfl rfl rfl rfl rfl

/-- The second product, W2ᵀ by the hidden values, is a plain one with 32 contracted positions. -/
theorem plain2 : Cert.LibMatmulSum.Plain dot_S3x32_S32x65536_S3x65536_1_0_0_1_n_n :=
  Cert.LibMatmulSum.Plain.of_lists _ rfl rfl rfl rfl rfl rfl

/-- Entry (o, l) of the stored tile. -/
theorem pay_at (x0 : FVec Ideal S11x65536 .f32) (x1 : FVec Ideal S32x11 .bf16) (x2 : FVec Ideal S32x1 .f32)
    (x3 : FVec Ideal S3x32 .bf16) (x4 : FVec Ideal S3x1 .f32) (o : Fin 3) (l : Fin 65536) :
    k0_pay1 (F := Ideal) x0 x1 x2 x3 x4 (ix2 o l)
      = (∑ j : Fin 32, x3 (ix2 o j) * max ((∑ k : Fin 11, x1 (ix2 j k) * x0 (ix2 k l)) + x2 (ix2 j (0 : Fin 1))) zw)
          + x4 (ix2 o (0 : Fin 1)) := by
  unfold k0_pay1
  simp only [matmul, shapeCast_self]
  rw [addf_apply, Cert.LibMatmulSum.matmul_zero_at plain2, broadcastTo_a1_ab_apply]
  congr 1
  refine Finset.sum_congr rfl fun j _ => ?_
  rw [truncf_apply, maximumf_apply, addf_apply, Cert.LibMatmulSum.matmul_zero_at plain1, broadcastTo_a1_ab_apply, broadcast_apply]
  rfl

end Cert.KernelIdeal.Hand

end
-- ==== Proof.KerValue.lean ====
/-
  What the kernel leaves in its result.  The region works in the transposed domain: its grid has 32 points, point t
  works on batch columns 65536·t … 65536·t + 65535 (its tile of xᵀ and of the transposed result), and sees the cut-down
  transposed weights and biases whole at every point.  So the tile it writes back is columns 65536·t … of ONE function
  of the argument arrays — entry (o, b) is the network's entry (b, o) in its narrow arrangement, summed over the first
  32 hidden lanes — and the 32 tiles together cover the 3 × 2097152 array: batch column b lies in tile b / 65536.
  After the region the host transposes that array, which puts entry (b, o) back at (b, o).
-/
import proofs.«165777_g2000302404671483_pallasbulk_1282_8_alg».proof.Proof.KerHost
import proofs.«165777_g2000302404671483_pallasbulk_1282_8_alg».proof.Proof.KerEntry
import Idealize.ShloMosaic.Lib.Pipeline.Value

noncomputable section

namespace Cert.KernelIdeal.Hand

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- Where each window's block sits at point t: the tiles of xᵀ and of the transposed result move right one tile per
    point, the weights and biases stay at block (0, 0). -/
theorem idx_facts : ∀ t : Fin cfg0.N,
    win0_0.index t (0 : Fin 2) = 0 ∧ win0_0.index t (1 : Fin 2) = t.val
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = t.val :=
  (by decide +kernel : ∀ t : Fin grid0.N, _)

/-- The batch column that column l of tile t is. -/
def col (t : Fin cfg0.N) (l : Fin 65536) : Fin 2097152 :=
  ⟨65536 * t.val + l.val, by have h : t.val < 32 := lt_of_lt_of_eq t.isLt N_0; have := l.isLt; omega⟩

/-- Tile t of xᵀ, at (k, l), is x at batch row 65536·t + l. -/
theorem blk0_apply (c : Dev nD) (t : Fin cfg0.N) (k : Fin 11) (l : Fin 65536) :
    (iblk m c 0 t : FVec Ideal S11x65536 .f32) (ix2 k l) = aX m c (ix2 (col t l) k) := by
  obtain ⟨e0, e1, -⟩ := idx_facts t
  unfold iblk
  rw [View.read_apply]
  show V m c main_v9 _ = _
  refine Eq.trans (congrArg (V m c main_v9) ?_) (entry_xT m c k (col t l))
  funext a
  apply Fin.ext
  match a with
  | ⟨0, _⟩ => show win0_0.index t (0 : Fin 2) * 11 + 1 * k.val = k.val; rw [e0]; omega
  | ⟨1, _⟩ => show win0_0.index t (1 : Fin 2) * 65536 + 1 * l.val = 65536 * t.val + l.val; rw [e1]; omega

/-- Every point sees W1ᵀ whole. -/
theorem blk1_apply (c : Dev nD) (t : Fin cfg0.N) (j : Fin 32) (k : Fin 11) :
    (iblk m c 1 t : FVec Ideal S32x11 .bf16) (ix2 j k) = aW1 m c (ix2 k (Cert.Net.up j)) := by
  obtain ⟨-, -, e0, e1, -⟩ := idx_facts t
  unfold iblk
  rw [View.read_apply]
  show V m c main_v2 _ = _
  refine Eq.trans (congrArg (V m c main_v2) ?_) (entry_w1T m c j k)
  funext a
  apply Fin.ext
  match a with
  | ⟨0, _⟩ => show win0_1.index t (0 : Fin 2) * 32 + 1 * j.val = j.val; rw [e0]; omega
  | ⟨1, _⟩ => show win0_1.index t (1 : Fin 2) * 11 + 1 * k.val = k.val; rw [e1]; omega

/-- Every point sees b1ᵀ whole. -/
theorem blk2_apply (c : Dev nD) (t : Fin cfg0.N) (j : Fin 32) (u : Fin 1) :
    (iblk m c 2 t : FVec Ideal S32x1 .f32) (ix2 j u) = aB1 m c (ix2 u (Cert.Net.up j)) := by
  obtain ⟨-, -, -, -, e0, e1, -⟩ := idx_facts t
  unfold iblk
  rw [View.read_apply]
  show V m c main_v4 _ = _
  refine Eq.trans (congrArg (V m c main_v4) ?_) (entry_b1T m c j u)
  funext a
  apply Fin.ext
  match a with
  | ⟨0, _⟩ => show win0_2.index t (0 : Fin 2) * 32 + 1 * j.val = j.val; rw [e0]; omega
  | ⟨1, _⟩ => show win0_2.index t (1 : Fin 2) * 1 + 1 * u.val = u.val; rw [e1]; omega

/-- Every point sees W2ᵀ whole. -/
theorem blk3_apply (c : Dev nD) (t : Fin cfg0.N) (o : Fin 3) (j : Fin 32) :
    (iblk m c 3 t : FVec Ideal S3x32 .bf16) (ix2 o j) = aW2 m c (ix2 (Cert.Net.up j) o) := by
  obtain ⟨-, -, -, -, -, -, e0, e1, -⟩ := idx_facts t
  unfold iblk
  rw [View.read_apply]
  show V m c main_v7 _ = _
  refine Eq.trans (congrArg (V m c main_v7) ?_) (entry_w2T m c o j)
  funext a
  apply Fin.ext
  match a with
  | ⟨0, _⟩ => show win0_3.index t (0 : Fin 2) * 3 + 1 * o.val = o.val; rw [e0]; omega
  | ⟨1, _⟩ => show win0_3.index t (1 : Fin 2) * 32 + 1 * j.val = j.val; rw [e1]; omega

/-- Every point sees b2ᵀ whole. -/
theorem blk4_apply (c : Dev nD) (t : Fin cfg0.N) (o : Fin 3) (u : Fin 1) :
    (iblk m c 4 t : FVec Ideal S3x1 .f32) (ix2 o u) = aB2 m c (ix2 u o) := by
  obtain ⟨-, -, -, -, -, -, -, -, e0, e1, -⟩ := idx_facts t
  unfold iblk
  rw [View.read_apply]
  show V m c main_v8 _ = _
  refine Eq.trans (congrArg (V m c main_v8) ?_) (entry_b2T m c o u)
  funext a
  apply Fin.ext
  match a with
  | ⟨0, _⟩ => show win0_4.index t (0 : Fin 2) * 3 + 1 * o.val = o.val; rw [e0]; omega
  | ⟨1, _⟩ => show win0_4.index t (1 : Fin 2) * 1 + 1 * u.val = u.val; rw [e1]; omega

/-- The network's entry (b, o) in the narrow arrangement, of the argument arrays on core c. -/
abbrev entry (c : Dev nD) (b : Fin 2097152) (o : Fin 3) : EReal :=
  Cert.Net.narrowAt zw (aX m c) (aW1 m c) (aB1 m c) (aW2 m c) (aB2 m c) b o

/-- The region's array as one function of the argument arrays: the narrow arrangement, transposed. -/
abbrev resultT (c : Dev nD) : S3x2097152.Idx → EReal := fun i => entry m c (i 1) (i 0)

/-- The kernel's result as one function of the argument arrays: the narrow arrangement. -/
abbrev result (c : Dev nD) : S2097152x3.Idx → EReal :=
  Cert.Net.narrow zw (aX m c) (aW1 m c) (aB1 m c) (aW2 m c) (aB2 m c)

/-- Entry (o, l) of what point t stores is the network's entry at batch row 65536·t + l, output o. -/
theorem stored_entry (c : Dev nD) (t : Fin cfg0.N) (o : Fin 3) (l : Fin 65536) :
    out0_5 (F := Ideal) (iblk m c 0 t) (iblk m c 1 t) (iblk m c 2 t) (iblk m c 3 t) (iblk m c 4 t) (ix2 o l)
      = entry m c (col t l) o := by
  unfold out0_5
  rw [View.canon_unit_zero hz]
  simp only [View.ld_unit_zero (S := S11x65536) hz, View.ld_unit_zero (S := S32x11) hz, View.ld_unit_zero (S := S32x1) hz,
    View.ld_unit_zero (S := S3x32) hz, View.ld_unit_zero (S := S3x1) hz]
  refine (pay_at (iblk m c 0 t) (iblk m c 1 t) (iblk m c 2 t) (iblk m c 3 t) (iblk m c 4 t) o l).trans ?_
  unfold entry Cert.Net.narrowAt
  simp only [blk0_apply, blk1_apply, blk2_apply, blk3_apply, blk4_apply]

/-- What point t writes back is tile t of the transposed result function. -/
theorem flushed_eq (c : Dev nD) (t : Fin cfg0.N) :
    (dats m 0 c).flushed 5 t = ((cfg0.win 5).blk t).view.read (Elt Ideal) (resultT m c) := by
  show (cfg0.win 5).cut (grid0.coords t) ((dats m 0 c).after 5 t) = _
  rw [after0_5]
  obtain ⟨-, -, -, -, -, -, -, -, -, -, e0, e1⟩ := idx_facts t
  funext y
  obtain ⟨o, l, rfl⟩ : ∃ (o : Fin 3) (l : Fin 65536), y = ix2 o l := ⟨y 0, y 1, eq_ix2 y⟩
  have hemb : ((cfg0.win 5).blk t).view.emb (ix2 o l) = ix2 o (col t l) := by
    funext a
    apply Fin.ext
    match a with
    | ⟨0, _⟩ => show win0_5.index t (0 : Fin 2) * 3 + 1 * o.val = o.val; rw [e0]; omega
    | ⟨1, _⟩ => show win0_5.index t (1 : Fin 2) * 65536 + 1 * l.val = 65536 * t.val + l.val; rw [e1]; omega
  show out0_5 (F := Ideal) (iblk m c 0 t) (iblk m c 1 t) (iblk m c 2 t) (iblk m c 3 t) (iblk m c 4 t) (ix2 o l)
    = resultT m c (((cfg0.win 5).blk t).view.emb (ix2 o l))
  rw [hemb, stored_entry]

/-- An index of the region's array is in point t's tile iff each coordinate is in the tile's range. -/
theorem mem_blk (t : Fin cfg0.N) (i : S3x2097152.Idx) :
    i ∈ ((cfg0.win 5).blk t).view.set ↔ ∀ a : Fin 2, win0_5.index t a * S3x65536.size a ≤ (i a).val ∧ (i a).val < win0_5.index t a * S3x65536.size a + S3x65536.size a := by
  show i ∈ ((View.whole main_v10).slice (win0_5.rect t)).set ↔ _
  rw [View.set_slice_whole, Rect.mem_set_unit]
  exact Iff.rfl

/-- Batch column b lies in tile b / 65536. -/
theorem cover (i : S3x2097152.Idx) : ∃ t : Fin cfg0.N, (cfg0.win 5).flush t = true ∧ i ∈ ((cfg0.win 5).blk t).view.set := by
  have hi0 : (i 0).val < 3 := (i 0).isLt
  have hi1 : (i 1).val < 2097152 := (i 1).isLt
  have hN : cfg0.N = 32 := N_0
  obtain ⟨t, ht⟩ : ∃ t : Fin cfg0.N, t.val = (i 1).val / 65536 :=
    ⟨⟨(i 1).val / 65536, lt_of_lt_of_eq (by omega : (i 1).val / 65536 < 32) hN.symm⟩, rfl⟩
  obtain ⟨-, -, -, -, -, -, -, -, -, -, e0, e1⟩ := idx_facts t
  refine ⟨t, flush0_5 t, ?_⟩
  rw [mem_blk]
  intro a
  match a with
  | ⟨0, _⟩ => show win0_5.index t (0 : Fin 2) * 3 ≤ (i 0).val ∧ (i 0).val < win0_5.index t (0 : Fin 2) * 3 + 3; rw [e0]; omega
  | ⟨1, _⟩ => show win0_5.index t (1 : Fin 2) * 65536 ≤ (i 1).val ∧ (i 1).val < win0_5.index t (1 : Fin 2) * 65536 + 65536; rw [e1, ht]; omega

/-- The region's array after the run. -/
theorem final (c : Dev nD) : (dats m 0 c).arrAt 5 cfg0.N = resultT m c :=
  (dats m 0 c).arrAt_eq_of_cover 5 (resultT m c) (fun t _ => flushed_eq m c t) cover

/-- The host's transpose after the region puts entry (b, o) of the network at (b, o). -/
theorem tail_eq (c : Dev nD) :
    Pipeline.afterTail₀ cfgs (dats m) 0 (V0 m) [hostOps1] c main_v11 = result m c := by
  unfold Pipeline.afterTail₀
  show StableHlo.after hostOps1 _ (Proc.devRef .tc main_v11) = _
  after_results
  have hw : Pipeline.withArrays spec0 c (V0 m c) (fun w => (dats m 0 c).arrAt w cfg0.N) (Proc.devRef .tc main_v10) = resultT m c :=
    (Pipeline.withArrays_arr spec0 launch0.win.arr_inj c _ _ 5).trans (final m c)
  rw [hw]
  funext i
  obtain ⟨b, o, rfl⟩ : ∃ (b : Fin 2097152) (o : Fin 3), i = ix2 b o := ⟨i 0, i 1, eq_ix2 i⟩
  rw [transpose_ix2_apply]
  rfl

/-- The kernel's run, read: the result array at the narrow arrangement of the arguments, the arguments unchanged. -/
theorem run : θ_run defs (onTc (τ := τ) (main (F := Ideal))) ⟨m, fun _ => 0, ρ⟩ fun r => ∀ c : Dev nD,
      r.2.mem ((c : Thread nD τ).loc main_v11) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c =>
    ⟨((h c).2 main_v11 (Pipeline.mem_restRefs_of main_v11 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Hand

end
-- ==== Proof.RefEntry.lean ====
/-
  One entry of what the reference's body stores.  The body works on a tile of 2048 batch rows: it multiplies the
  tile (2048 × 11) by W1 (11 × 128), adds the row b1 to every row, cuts below at the zero word, multiplies by
  W2 (128 × 3) and adds the row b2.  Entry (r, o) of the stored tile is therefore
      Σ_{j<128} max(Σ_{k<11} tile(r,k) · W1(k,j) + b1(0,j), z) · W2(j,o) + b2(0,o),
  each matrix product into a zero accumulator being the plain sum over its contracted axis.
-/
import proofs.«165777_g2000302404671483_pallasbulk_1282_8_alg».proof.Proof.Gen.ReferenceIdeal.Skeleton
import proofs.«165777_g2000302404671483_pallasbulk_1282_8_alg».proof.Proof.LibPlainLists
import Idealize.ShloMosaic.Lib.ValueLayout

noncomputable section

namespace Cert.ReferenceIdeal.Hand

open Cert.ReferenceIdeal Cert.ReferenceIdeal.Gen Idealize.ShloMosaic Idealize.ShloMosaic.ValueIdx

/-- The word the hidden values are cut below at, read as an extended real. -/
abbrev zw : EReal := (Scalar.ofBits (F := Ideal) .f32 0x00000000#32 : Ideal .f32)

/-- The first product, tile by W1, is a plain one with 11 contracted positions. -/
theorem plain1 : Cert.LibMatmulSum.Plain dot_S2048x11_S11x128_S2048x128_1_0_0_1_n_n :=
  Cert.LibMatmulSum.Plain.of_lists _ rfl rfl rfl rfl rfl rfl

/-- The second product, hidden values by W2, is a plain one with 128 contracted positions. -/
theorem plain2 : Cert.LibMatmulSum.Plain dot_S2048x128_S128x3_S2048x3_1_0_0_1_n_n :=
  Cert.LibMatmulSum.Plain.of_lists _ rfl rfl rfl rfl rfl rfl

/-- Entry (r, o) of the stored tile. -/
theorem pay_at (x0 : FVec Ideal S2048x11 .f32) (x1 : FVec Ideal S11x128 .f32) (x2 : FVec Ideal S1x128 .f32)
    (x3 : FVec Ideal S128x3 .f32) (x4 : FVec Ideal S1x3 .f32) (r : Fin 2048) (o : Fin 3) :
    k0_pay1 (F := Ideal) x0 x1 x2 x3 x4 (ix2 r o)
      = (∑ j : Fin 128, max ((∑ k : Fin 11, x0 (ix2 r k) * x1 (ix2 k j)) + x2 (ix2 (0 : Fin 1) j)) zw * x3 (ix2 j o))
          + x4 (ix2 (0 : Fin 1) o) := by
  unfold k0_pay1
  simp only [matmul]
  rw [addf_apply, Cert.LibMatmulSum.matmul_zero_at plain2, broadcastTo_1b_ab_apply]
  congr 1
  refine Finset.sum_congr rfl fun j _ => ?_
  rw [maximumf_apply, addf_apply, Cert.LibMatmulSum.matmul_zero_at plain1, broadcastTo_1b_ab_apply, broadcast_apply]

end Cert.ReferenceIdeal.Hand

end
-- ==== Proof.RefValue.lean ====
/-
  What the reference leaves in its result array.  The grid has 1024 points; point t works on batch rows
  2048·t … 2048·t + 2047 (its tile of x and of the result), and sees W1, b1, W2, b2 whole at every point.  So the tile
  it writes back is rows 2048·t … of ONE function of the argument arrays — the network in its wide arrangement, summed
  over all 128 hidden lanes — and the 1024 tiles together cover the result: batch row b lies in tile b / 2048.
-/
import proofs.«165777_g2000302404671483_pallasbulk_1282_8_alg».proof.Proof.Gen.ReferenceIdeal.Frame
import proofs.«165777_g2000302404671483_pallasbulk_1282_8_alg».proof.Proof.Gen.ReferenceIdeal.Value
import proofs.«165777_g2000302404671483_pallasbulk_1282_8_alg».proof.Proof.RefEntry
import proofs.«165777_g2000302404671483_pallasbulk_1282_8_alg».proof.Proof.Net
import Idealize.ShloMosaic.Lib.Pipeline.Value

noncomputable section

namespace Cert.ReferenceIdeal.Hand

open Cert.ReferenceIdeal Cert.ReferenceIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- Where each window's block sits at point t: the tiles of x and of the result move down one tile per point, the
    weights and biases stay at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The batch row that row r of tile t is. -/
def row (t : Fin cfg0.N) (r : Fin 2048) : Fin 2097152 :=
  ⟨2048 * t.val + r.val, by have h : t.val < 1024 := lt_of_lt_of_eq t.isLt N_0; have := r.isLt; omega⟩

theorem row_val (t : Fin cfg0.N) (r : Fin 2048) : (row t r).val = 2048 * t.val + r.val := rfl

/-- The five argument arrays on core c. -/
abbrev aX (c : Dev nD) : S2097152x11.Idx → EReal := m ((c : Thread nD τ).loc main_arg0)
abbrev aW1 (c : Dev nD) : S11x128.Idx → EReal := m ((c : Thread nD τ).loc main_arg1)
abbrev aB1 (c : Dev nD) : S1x128.Idx → EReal := m ((c : Thread nD τ).loc main_arg2)
abbrev aW2 (c : Dev nD) : S128x3.Idx → EReal := m ((c : Thread nD τ).loc main_arg3)
abbrev aB2 (c : Dev nD) : S1x3.Idx → EReal := m ((c : Thread nD τ).loc main_arg4)

/-- Tile t of x, at (r, k), is x at batch row 2048·t + r. -/
theorem blk0_apply (c : Dev nD) (t : Fin cfg0.N) (r : Fin 2048) (k : Fin 11) :
    (iblk m c 0 t : FVec Ideal S2048x11 .f32) (ix2 r k) = aX m c (ix2 (row t r) k) := by
  obtain ⟨e0, e1, -⟩ := idx_facts t
  unfold iblk
  rw [View.read_apply]
  show m (c.tc.loc main_arg0) _ = m (c.tc.loc main_arg0) _
  congr 1
  funext a
  apply Fin.ext
  match a with
  | ⟨0, _⟩ => show win0_0.index t (0 : Fin 2) * 2048 + 1 * r.val = 2048 * t.val + r.val; rw [e0]; omega
  | ⟨1, _⟩ => show win0_0.index t (1 : Fin 2) * 11 + 1 * k.val = k.val; rw [e1]; omega

/-- Every point sees W1 whole. -/
theorem blk1_apply (c : Dev nD) (t : Fin cfg0.N) (k : Fin 11) (j : Fin 128) :
    (iblk m c 1 t : FVec Ideal S11x128 .f32) (ix2 k j) = aW1 m c (ix2 k j) := by
  obtain ⟨-, -, e0, e1, -⟩ := idx_facts t
  unfold iblk
  rw [View.read_apply]
  show m (c.tc.loc main_arg1) _ = m (c.tc.loc main_arg1) _
  congr 1
  funext a
  apply Fin.ext
  match a with
  | ⟨0, _⟩ => show win0_1.index t (0 : Fin 2) * 11 + 1 * k.val = k.val; rw [e0]; omega
  | ⟨1, _⟩ => show win0_1.index t (1 : Fin 2) * 128 + 1 * j.val = j.val; rw [e1]; omega

/-- Every point sees b1 whole. -/
theorem blk2_apply (c : Dev nD) (t : Fin cfg0.N) (u : Fin 1) (j : Fin 128) :
    (iblk m c 2 t : FVec Ideal S1x128 .f32) (ix2 u j) = aB1 m c (ix2 u j) := by
  obtain ⟨-, -, -, -, e0, e1, -⟩ := idx_facts t
  unfold iblk
  rw [View.read_apply]
  show m (c.tc.loc main_arg2) _ = m (c.tc.loc main_arg2) _
  congr 1
  funext a
  apply Fin.ext
  match a with
  | ⟨0, _⟩ => show win0_2.index t (0 : Fin 2) * 1 + 1 * u.val = u.val; rw [e0]; omega
  | ⟨1, _⟩ => show win0_2.index t (1 : Fin 2) * 128 + 1 * j.val = j.val; rw [e1]; omega

/-- Every point sees W2 whole. -/
theorem blk3_apply (c : Dev nD) (t : Fin cfg0.N) (j : Fin 128) (o : Fin 3) :
    (iblk m c 3 t : FVec Ideal S128x3 .f32) (ix2 j o) = aW2 m c (ix2 j o) := by
  obtain ⟨-, -, -, -, -, -, e0, e1, -⟩ := idx_facts t
  unfold iblk
  rw [View.read_apply]
  show m (c.tc.loc main_arg3) _ = m (c.tc.loc main_arg3) _
  congr 1
  funext a
  apply Fin.ext
  match a with
  | ⟨0, _⟩ => show win0_3.index t (0 : Fin 2) * 128 + 1 * j.val = j.val; rw [e0]; omega
  | ⟨1, _⟩ => show win0_3.index t (1 : Fin 2) * 3 + 1 * o.val = o.val; rw [e1]; omega

/-- Every point sees b2 whole. -/
theorem blk4_apply (c : Dev nD) (t : Fin cfg0.N) (u : Fin 1) (o : Fin 3) :
    (iblk m c 4 t : FVec Ideal S1x3 .f32) (ix2 u o) = aB2 m c (ix2 u o) := by
  obtain ⟨-, -, -, -, -, -, -, -, e0, e1, -⟩ := idx_facts t
  unfold iblk
  rw [View.read_apply]
  show m (c.tc.loc main_arg4) _ = m (c.tc.loc main_arg4) _
  congr 1
  funext a
  apply Fin.ext
  match a with
  | ⟨0, _⟩ => show win0_4.index t (0 : Fin 2) * 1 + 1 * u.val = u.val; rw [e0]; omega
  | ⟨1, _⟩ => show win0_4.index t (1 : Fin 2) * 3 + 1 * o.val = o.val; rw [e1]; omega

/-- The result as one function of the argument arrays: the wide arrangement. -/
abbrev result (c : Dev nD) : S2097152x3.Idx → EReal :=
  Cert.Net.wide zw (aX m c) (aW1 m c) (aB1 m c) (aW2 m c) (aB2 m c)

/-- Entry (r, o) of what point t stores is the network's entry at batch row 2048·t + r. -/
theorem stored_entry (c : Dev nD) (t : Fin cfg0.N) (r : Fin 2048) (o : Fin 3) :
    out0_5 (F := Ideal) (iblk m c 0 t) (iblk m c 1 t) (iblk m c 2 t) (iblk m c 3 t) (iblk m c 4 t) (ix2 r o)
      = Cert.Net.wideAt zw (aX m c) (aW1 m c) (aB1 m c) (aW2 m c) (aB2 m c) (row t r) o := by
  unfold out0_5
  rw [View.canon_unit_zero hz]
  simp only [View.ld_unit_zero (S := S2048x11) hz, View.ld_unit_zero (S := S11x128) hz, View.ld_unit_zero (S := S1x128) hz,
    View.ld_unit_zero (S := S128x3) hz, View.ld_unit_zero (S := S1x3) hz]
  refine (pay_at (iblk m c 0 t) (iblk m c 1 t) (iblk m c 2 t) (iblk m c 3 t) (iblk m c 4 t) r o).trans ?_
  unfold Cert.Net.wideAt Cert.Net.hid
  simp only [blk0_apply, blk1_apply, blk2_apply, blk3_apply, blk4_apply]

/-- What point t writes back is tile t of the result function. -/
theorem flushed_eq (c : Dev nD) (t : Fin cfg0.N) :
    (dats m 0 c).flushed 5 t = ((cfg0.win 5).blk t).view.read (Elt Ideal) (result m c) := by
  show (cfg0.win 5).cut (grid0.coords t) ((dats m 0 c).after 5 t) = _
  rw [after0_5]
  obtain ⟨-, -, -, -, -, -, -, -, -, -, e0, e1⟩ := idx_facts t
  funext y
  obtain ⟨r, o, rfl⟩ : ∃ (r : Fin 2048) (o : Fin 3), y = ix2 r o := ⟨y 0, y 1, eq_ix2 y⟩
  have hemb : ((cfg0.win 5).blk t).view.emb (ix2 r o) = ix2 (row t r) o := by
    funext a
    apply Fin.ext
    match a with
    | ⟨0, _⟩ => show win0_5.index t (0 : Fin 2) * 2048 + 1 * r.val = 2048 * t.val + r.val; rw [e0]; omega
    | ⟨1, _⟩ => show win0_5.index t (1 : Fin 2) * 3 + 1 * o.val = o.val; rw [e1]; omega
  show out0_5 (F := Ideal) (iblk m c 0 t) (iblk m c 1 t) (iblk m c 2 t) (iblk m c 3 t) (iblk m c 4 t) (ix2 r o)
    = result m c (((cfg0.win 5).blk t).view.emb (ix2 r o))
  rw [hemb, stored_entry]
  rfl

/-- An index of the result is in point t's tile iff each coordinate is in the tile's range. -/
theorem mem_blk (t : Fin cfg0.N) (i : S2097152x3.Idx) :
    i ∈ ((cfg0.win 5).blk t).view.set ↔ ∀ a : Fin 2, win0_5.index t a * S2048x3.size a ≤ (i a).val ∧ (i a).val < win0_5.index t a * S2048x3.size a + S2048x3.size a := by
  show i ∈ ((View.whole main_v0).slice (win0_5.rect t)).set ↔ _
  rw [View.set_slice_whole, Rect.mem_set_unit]
  exact Iff.rfl

/-- Batch row b lies in tile b / 2048. -/
theorem cover (i : S2097152x3.Idx) : ∃ t : Fin cfg0.N, (cfg0.win 5).flush t = true ∧ i ∈ ((cfg0.win 5).blk t).view.set := by
  have hi0 : (i 0).val < 2097152 := (i 0).isLt
  have hi1 : (i 1).val < 3 := (i 1).isLt
  have hN : cfg0.N = 1024 := N_0
  obtain ⟨t, ht⟩ : ∃ t : Fin cfg0.N, t.val = (i 0).val / 2048 := ⟨⟨(i 0).val / 2048, lt_of_lt_of_eq (by omega : (i 0).val / 2048 < 1024) hN.symm⟩, rfl⟩
  obtain ⟨-, -, -, -, -, -, -, -, -, -, e0, e1⟩ := idx_facts t
  refine ⟨t, flush0_5 t, ?_⟩
  rw [mem_blk]
  intro a
  match a with
  | ⟨0, _⟩ => show win0_5.index t (0 : Fin 2) * 2048 ≤ (i 0).val ∧ (i 0).val < win0_5.index t (0 : Fin 2) * 2048 + 2048; rw [e0, ht]; omega
  | ⟨1, _⟩ => show win0_5.index t (1 : Fin 2) * 3 ≤ (i 1).val ∧ (i 1).val < win0_5.index t (1 : Fin 2) * 3 + 3; rw [e1]; omega

/-- The result array after the run. -/
theorem final (c : Dev nD) : (dats m 0 c).arrAt 5 cfg0.N = result m c :=
  (dats m 0 c).arrAt_eq_of_cover 5 (result m c) (fun t _ => flushed_eq m c t) cover

/-- The reference's run, read: the result array at the wide arrangement of the arguments, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final m c), (h c).2⟩) (Cert.ReferenceIdeal.Value.run_blocks m ρ)

end Cert.ReferenceIdeal.Hand

end
-- ==== Proof.PreDecode.lean ====
/-
  The stated precondition, opened at its last conjunct.  The precondition is the conjunction of five "every entry is
  finite" tests and one more test: rows 32 … 127 of the 128 × 3 weight array, taken as a 96 × 3 slice, compared entry
  by entry with zero, the 288 comparisons conjoined.  If the whole conjunction is 1 then that last test is 1, so every
  comparison is 1, so entry (j, o) of the weight array is the extended real 0 whenever j ≥ 32.
-/
import proofs.«165777_g2000302404671483_pallasbulk_1282_8_alg».proof.Pre_finite_inputs
import Idealize.ShloMosaic.Lib.ReduceAll
import Idealize.ShloMosaic.Lib.ValueIdx
import Idealize.ShloMosaic.Lib.IdealHost
import Idealize.ShloMosaic.Lib.Pipeline.Value
import Idealize.ShloMosaic.PureOps.Ideal.Laws

noncomputable section

namespace Cert.Pre_finite_inputs.Hand

open Cert.Pre_finite_inputs Idealize.ShloMosaic Idealize.ShloMosaic.ValueIdx

variable [Facts]

instance : Subsingleton S_.Idx := ⟨fun _ _ => funext fun d => d.elim0⟩

theorem and1 : ∀ (a b : BitVec 1), IntOp.andi a b = 1#1 ↔ a = 1#1 ∧ b = 1#1 := by decide

theorem ofBool_eq_one (b : Bool) : BitVec.ofBool b = 1#1 ↔ b = true := by cases b <;> decide

/-- Under the precondition, rows 32 … 127 of the second weight array are zero. -/
theorem w2_rows_zero (a0 : FVec Ideal S2097152x11 .f32) (a1 : FVec Ideal S11x128 .f32) (a2 : FVec Ideal S1x128 .f32)
    (a3 : FVec Ideal S128x3 .f32) (a4 : FVec Ideal S1x3 .f32) (h : fn (F := Ideal) a0 a1 a2 a3 a4 = fun _ => 1#1)
    (j : Fin 128) (o : Fin 3) (hj : 32 ≤ j.val) : a3 (ix2 j o) = 0 := by
  have e := congrFun h ix0
  unfold fn fn_part1 at e
  simp only [andi] at e
  rw [and1] at e
  obtain ⟨-, e27⟩ := e
  have hj' : j.val - 32 < 96 := by have := j.isLt; omega
  have p := Host.reduce_andi_all _ _ _ _ _ e27 (ix2 (⟨j.val - 32, hj'⟩ : Fin 96) o)
  rw [cmpf_apply] at p
  have hs : extractStridedSlice S96x3 ![32, 0] a3 Facts.slices_S128x3_S96x3_32_0 (ix2 (⟨j.val - 32, hj'⟩ : Fin 96) o) = a3 (ix2 j o) :=
    extractStridedSlice_apply _ a3 _ (ix2 (⟨j.val - 32, hj'⟩ : Fin 96) o) (ix2 j o) fun a => by
      match a with
      | ⟨0, _⟩ => show j.val = 32 + (j.val - 32); omega
      | ⟨1, _⟩ => show o.val = 0 + o.val; omega
  rw [hs, broadcastInDim_scalar_apply, constant_apply, Ideal.ofBits_zero_f32] at p
  have p' : BitVec.ofBool (decide (a3 (ix2 j o) = 0)) = 1#1 := p
  rw [ofBool_eq_one, decide_eq_true_eq] at p'
  exact p'

end Cert.Pre_finite_inputs.Hand

end
-- ==== Proof.lean ====
/-
  Both programs compute the two-layer network  y = max(x · W1 + b1, 0) · W2 + b2  for 2097152 batch rows, 11 inputs,
  3 outputs, with the hidden axis stored padded from 32 to 128 lanes.

  The reference multiplies row tiles of x by the padded weights and sums the second product over all 128 hidden lanes.
  The kernel first cuts the weights down to the first 32 hidden lanes and transposes every array, computes
  W2ᵀ · max(W1ᵀ · xᵀ + b1ᵀ, 0) + b2ᵀ on column tiles, and transposes the result back.  On the extended reals a change of
  float format is the identity and each matrix product is the exact sum over its contracted axis, so entry (b, o) of the
  kernel's result is the sum over the first 32 hidden lanes j of  W2(j,o) · max(Σ_k W1(k,j) · x(b,k) + b1(0,j), 0),
  plus b2(0,o), and the reference's is the same sum over all 128 lanes with each product's factors in the other order.

  The claim is stated under the contract the reference documents for its prepared weights: rows 32 … 127 of W2 are
  zero padding.  Under it each of the 96 extra terms is (hidden value) · 0 = 0 — true of every extended real, so
  finiteness of the inputs is not used — and the two sums agree by commutativity of the product.

  The three frame claims are the generated frame certificates; the idealization rewrote nothing, so the preservation
  claim is trivial.
-/
import proofs.«165777_g2000302404671483_pallasbulk_1282_8_alg».proof.Defs
import proofs.«165777_g2000302404671483_pallasbulk_1282_8_alg».proof.Proof.Gen.Kernel
import proofs.«165777_g2000302404671483_pallasbulk_1282_8_alg».proof.Proof.Gen.Kernel.Skeleton
import proofs.«165777_g2000302404671483_pallasbulk_1282_8_alg».proof.Proof.Gen.Kernel.Launch
import proofs.«165777_g2000302404671483_pallasbulk_1282_8_alg».proof.Proof.Gen.Kernel.Points
import proofs.«165777_g2000302404671483_pallasbulk_1282_8_alg».proof.Proof.Gen.Kernel.Frame
import proofs.«165777_g2000302404671483_pallasbulk_1282_8_alg».proof.Proof.Gen.KernelIdeal
import proofs.«165777_g2000302404671483_pallasbulk_1282_8_alg».proof.Proof.Gen.KernelIdeal.Skeleton
import proofs.«165777_g2000302404671483_pallasbulk_1282_8_alg».proof.Proof.Gen.KernelIdeal.Launch
import proofs.«165777_g2000302404671483_pallasbulk_1282_8_alg».proof.Proof.Gen.KernelIdeal.Points
import proofs.«165777_g2000302404671483_pallasbulk_1282_8_alg».proof.Proof.Gen.KernelIdeal.Frame
import proofs.«165777_g2000302404671483_pallasbulk_1282_8_alg».proof.Proof.Gen.ReferenceIdeal
import proofs.«165777_g2000302404671483_pallasbulk_1282_8_alg».proof.Proof.Gen.ReferenceIdeal.Skeleton
import proofs.«165777_g2000302404671483_pallasbulk_1282_8_alg».proof.Proof.Gen.ReferenceIdeal.Launch
import proofs.«165777_g2000302404671483_pallasbulk_1282_8_alg».proof.Proof.Gen.ReferenceIdeal.Points
import proofs.«165777_g2000302404671483_pallasbulk_1282_8_alg».proof.Proof.Gen.ReferenceIdeal.Frame
import proofs.«165777_g2000302404671483_pallasbulk_1282_8_alg».proof.Proof.Gen.Pre_finite_inputs
import proofs.«165777_g2000302404671483_pallasbulk_1282_8_alg».proof.Proof.KerValue
import proofs.«165777_g2000302404671483_pallasbulk_1282_8_alg».proof.Proof.RefValue
import proofs.«165777_g2000302404671483_pallasbulk_1282_8_alg».proof.Proof.PreDecode
import Idealize.ShloMosaic.Adequacy
import Idealize.ShloMosaic.Init

noncomputable section

namespace Cert.Proof

open Idealize.ShloMosaic Idealize.SL.Sem Idealize.ShloMosaic.ValueIdx

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ => Cert.ReferenceIdeal.Gen.frame m ρ

theorem preserves : Cert.preserves_Kernel_KernelIdeal := trivial

/-- The kernel's result array ends at the narrow arrangement of the arguments and the reference's at the wide one;
    the arguments agree, and under the precondition rows 32 … 127 of W2 vanish, so the two arrangements are one. -/
theorem algebraic : Cert.algebraic_KernelIdeal_ReferenceIdeal := by
  intro m ρ m' ρ' hpre hagree
  refine ⟨fun c => Cert.KernelIdeal.Hand.result m c, Cert.KernelIdeal.Hand.run m ρ, ?_⟩
  refine (θ_run Cert.ReferenceIdeal.defs _ _).mono (fun _ h c => ⟨(h c).1.trans ?_, (h c).2⟩)
    (Cert.ReferenceIdeal.Hand.run m' ρ')
  obtain ⟨h0, h1, h2, h3, h4⟩ := hagree c
  have hz : ∀ (j : Fin 128) (o : Fin 3), 32 ≤ j.val → Cert.KernelIdeal.Hand.aW2 m c (ix2 j o) = 0 :=
    fun j o hj => Cert.Pre_finite_inputs.Hand.w2_rows_zero _ _ _ _ _ (hpre c) j o hj
  show Cert.Net.wide Cert.ReferenceIdeal.Hand.zw
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
    = Cert.KernelIdeal.Hand.result m c
  rw [h0, h1, h2, h3, h4]
  exact (Cert.Net.narrow_eq_wide _ _ _ _ _ _ hz).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
